-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S64x64 : Shape := ⟨2, ![64, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64x64 .f32) (main_arg6 : FVec F S64x64 .f32) (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S16x2048x64 .f32) (main_arg1 : FVec F S16x2048x64 .f32) (main_arg2 : FVec F S16x2048x64 .f32) (main_arg3 : FVec F S16x2048x2048 .f32) (main_arg4 : FVec F S64x64 .f32) (main_arg5 : FVec F S64x64 .f32) (main_arg6 : FVec F S64x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_arg4 main_arg5 main_arg6 main_v13 main_v16
-- ==== Kernel.lean ====
abbrev S16x2048x64 : Shape := ⟨3, ![16, 2048, 64]⟩
abbrev S16x2048x2048 : Shape := ⟨3, ![16, 2048, 2048]⟩
abbrev S64x64 : Shape := ⟨2, ![64, 64]⟩
abbrev S1x512x64 : Shape := ⟨3, ![1, 512, 64]⟩
abbrev S1x2048x64 : Shape := ⟨3, ![1, 2048, 64]⟩
abbrev S1x512x2048 : Shape := ⟨3, ![1, 512, 2048]⟩
abbrev S2048x64 : Shape := ⟨2, ![2048, 64]⟩
abbrev S512x64 : Shape := ⟨2, ![512, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x512x2048, .f32⟩
  | .local _ .vmem, ⟨10, _⟩ => ⟨S1x512x2048, .f32⟩
  | .local _ .vmem, ⟨11, _⟩ => ⟨S1x512x64, .f32⟩
  | .local _ .vmem, ⟨12, _⟩ => ⟨S1x512x64, .f32⟩
  | .local _ .vmem, ⟨13, _⟩ => ⟨S2048x64, .bf16⟩
  | .local _ .vmem, ⟨14, _⟩ => ⟨S2048x64, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S2048x64_S64x64_S2048x64_1_0_0_1_n_n_wf : DotDims.WF S2048x64 S64x64 S2048x64 [1] [0] [0] [1] [] []
  dot_S512x64_S64x64_S512x64_1_0_0_1_n_n_wf : DotDims.WF S512x64 S64x64 S512x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S16x2048x2048.size a
  hwx0_6 : ∀ i : grid0.Coords, EltTy.bits .f32 = 32 ∨ (Rect.block (s := S16x2048x2048) S1x512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S16x2048x64.size a
  hwx0_7 : ∀ i : grid0.Coords, EltTy.bits .f32 = 32 ∨ (Rect.block (s := S16x2048x64) S1x512x64.size (cc0_transform_7 i) (hinb0_7 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S1x512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S64x64 : Shape := ⟨2, ![64, 64]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S16x2048x64, .f32⟩
  | .hbm, ⟨8, _⟩ => ⟨S16x2048x64, .f32⟩
  | .hbm, ⟨9, _⟩ => ⟨S16x2048x64, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S64x64_S16x2048x64_2_0_01_1_n_n_wf : DotDims.WF S16x2048x64 S64x64 S16x2048x64 [2] [0] [0, 1] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibWholeStores.lean ====
/-
  Reading back what whole-buffer stores left.

  A store through the rectangle that is the whole shape at zero offsets replaces everything: whatever was stored before
  it, the buffer then reads as its payload; a load covered by such a store reads the payload;
  and a load of the whole shape reads the contents as they are.
-/
import Idealize.ShloMosaic.Lib.Pipeline.Value
import Idealize.ShloMosaic.Lib.Pipeline.FrameBody

noncomputable section

namespace Cert.WholeStores

open Idealize.ShloMosaic

variable {sig : RefSig} {κ : Kind} {sp : Space} {Val : EltTy → Type} [∀ e, Nonempty (Val e)] {S : Shape} {e : EltTy}

/-- The two zero offsets of a rank-2 shape, however spelt. -/
theorem zero2 : (![0, 0] : Fin 2 → Nat) = fun _ => 0 := by
  funext a
  match a with
  | ⟨0, _⟩ => rfl
  | ⟨1, _⟩ => rfl

/-- After a whole-shape store, last of any stores, the buffer reads as that store's payload. -/
theorem read_writes_whole (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons.mpr (Or.inl rfl), View.mem_set_unit_zero h inb y⟩),
    View.canon_cons_unit_zero h inb w L]

/-- A whole-shape load covered by a whole-shape store, last of any stores, reads that store's payload. -/
theorem readCov_whole (v : View sig κ sp S e) {off : Fin S.rank → Nat} (h : off = fun _ => 0)
    (inb : ∀ a, off a + S.size a ≤ S.size a) (w : S.Idx → Val e) (L : List (View.Piece Val S e)) :
    v.readCov (⟨Rect.unit off S.size inb, w⟩ :: L) (Rect.unit off S.size inb).toLoadRect = w := by
  rw [View.readCov_eq_canon_ld v _ _ (fun y => ⟨_, List.mem_cons.mpr (Or.inl rfl), View.mem_set_unit_zero h inb y⟩),
    View.canon_cons_unit_zero h inb w L, View.ld_unit_zero h inb]

/-- A whole-shape load reads the contents as they are. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

end Cert.WholeStores

end
-- ==== Proof.Pieces.lean ====
/-
  What one grid point's body leaves behind, as values of what it loaded.

  The body makes three stores, each through the whole of its buffer: the projected keys and the projected values into the
  two scratch buffers (only at the first query tile of a batch element), and the attention block into the output's
  staging buffer. A buffer stored whole reads back as that store's payload, and a whole load returns the contents as they
  are; so at a point of the first kind the two scratch buffers end as the two projections of the point's key and value
  blocks and the output as the attention of the query block against THOSE projections, while at any other point the
  scratch buffers keep what the point before left and the output is the attention against that.
-/
import proofs.«138952_j47854525612135_2_alg».proof.Proof.Gen.KernelIdeal.Frame
import proofs.«138952_j47854525612135_2_alg».proof.Proof.LibWholeStores

set_option maxRecDepth 16384

noncomputable section

namespace Cert.Attn.Pieces

open Idealize.ShloMosaic Idealize.ShloMosaic.TcCoe Idealize.ShloMosaic.Tactic Cert.KernelIdeal Cert.KernelIdeal.Gen

variable {F : FTy → Type} [FloatOps F]

/-- The three zero offsets of a rank-3 shape. -/
theorem zero3 : (![0, 0, 0] : Fin 3 → Nat) = fun _ => 0 := by
  funext a
  match a with
  | ⟨0, _⟩ => rfl
  | ⟨1, _⟩ => rfl
  | ⟨2, _⟩ => rfl

/-- First query tile: the first scratch buffer ends as the projection of the key block. -/
theorem sout_A_0 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512x2048 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i)
    (x0 : Vec F S1x512x64 .f32) (x1 : Vec F S1x2048x64 .f32) (x2 : Vec F S1x2048x64 .f32) (x3 : Vec F S64x64 .f32) (x4 : Vec F S64x64 .f32) (x5 : Vec F S64x64 .f32) (x6 : Vec F S1x512x2048 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay1 x1 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero WholeStores.zero2, WholeStores.readAt_whole _ _ zero3, WholeStores.readAt_whole _ _ WholeStores.zero2,
    harg3.read_unread, harg6.read_unread]

/-- First query tile: the second scratch buffer ends as the projection of the value block. -/
theorem sout_A_1 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512x2048 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i)
    (x0 : Vec F S1x512x64 .f32) (x1 : Vec F S1x2048x64 .f32) (x2 : Vec F S1x2048x64 .f32) (x3 : Vec F S64x64 .f32) (x4 : Vec F S64x64 .f32) (x5 : Vec F S64x64 .f32) (x6 : Vec F S1x512x2048 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay2 x2 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero WholeStores.zero2, WholeStores.readAt_whole _ _ zero3, WholeStores.readAt_whole _ _ WholeStores.zero2,
    harg4.read_unread, harg7.read_unread]

/-- First query tile: the output block is the attention of the query block against the projections just stored. -/
theorem out_A_7 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512x2048 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i)
    (x0 : Vec F S1x512x64 .f32) (x1 : Vec F S1x2048x64 .f32) (x2 : Vec F S1x2048x64 .f32) (x3 : Vec F S64x64 .f32) (x4 : Vec F S64x64 .f32) (x5 : Vec F S64x64 .f32) (x6 : Vec F S1x512x2048 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay3 x0 x3 (k0_pay1 x1 x4) (k0_pay2 x2 x5) x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.canon_unit_zero (S := S1x512x64) zero3, View.readCov_unit_zero (S := S2048x64) _ WholeStores.zero2,
    WholeStores.readAt_whole (S := S1x512x64) _ _ zero3, WholeStores.readAt_whole (S := S1x2048x64) _ _ zero3,
    WholeStores.readAt_whole (S := S1x512x2048) _ _ zero3, WholeStores.readAt_whole (S := S64x64) _ _ WholeStores.zero2,
    WholeStores.readAt_whole (S := S2048x64) _ _ WholeStores.zero2, Memref.IsWhole.read_unread]

/-- Any later query tile: the output block is the attention of the query block against what the scratch buffers held. -/
theorem out_B_7 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512x2048 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : ¬cond0_0 i)
    (x0 : Vec F S1x512x64 .f32) (x1 : Vec F S1x2048x64 .f32) (x2 : Vec F S1x2048x64 .f32) (x3 : Vec F S64x64 .f32) (x4 : Vec F S64x64 .f32) (x5 : Vec F S64x64 .f32) (x6 : Vec F S1x512x2048 .f32) (xs0 : Vec F S2048x64 .bf16) (xs1 : Vec F S2048x64 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = k0_pay3 x0 x3 xs0 xs1 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  simp only [View.canon_unit_zero (S := S1x512x64) zero3, View.readCov_unit_zero (S := S2048x64) _ WholeStores.zero2,
    WholeStores.readAt_whole (S := S1x512x64) _ _ zero3, WholeStores.readAt_whole (S := S1x2048x64) _ _ zero3,
    WholeStores.readAt_whole (S := S1x512x2048) _ _ zero3, WholeStores.readAt_whole (S := S64x64) _ _ WholeStores.zero2,
    WholeStores.readAt_whole (S := S2048x64) _ _ WholeStores.zero2, Memref.IsWhole.read_unread]

end Cert.Attn.Pieces

end
-- ==== Proof.Blocks.lean ====
/-
  Where each window's block sits in its array.

  The grid has 64 points: 16 batch elements by 4 query tiles of 512 rows, the tile index running fastest, so point `t` is
  tile `t mod 4` of batch element `t / 4`. At that point the query, mask and output windows hold rows
  `512·(t mod 4) … 512·(t mod 4) + 511` of batch element `t / 4`, the key and value windows hold all 2048 rows of that
  batch element, and the three projection windows hold their whole 64 × 64 arrays.
-/
import proofs.«138952_j47854525612135_2_alg».proof.Proof.Gen.KernelIdeal.Frame
import Idealize.ShloMosaic.Lib.ValueIdx

set_option maxRecDepth 16384

noncomputable section

namespace Cert.Attn.Blocks

open Idealize.ShloMosaic Idealize.ShloMosaic.TcCoe Idealize.ShloMosaic.ValueIdx Cert.KernelIdeal Cert.KernelIdeal.Gen

variable {F : FTy → Type} [FloatOps F]
variable (m : (ℓ : Loc nD τ sig) → Buf (Elt F) ℓ)

/-- The grid has 64 points. -/
theorem tlt (t : Fin cfg0.N) : t.val < 64 := lt_of_lt_of_eq t.isLt N_0

/-- The batch element of grid point `t`: the grid is 16 batch elements by 4 query tiles, the tile running fastest. -/
def bt (t : Fin cfg0.N) : Fin 16 := ⟨t.val / 4, by have := tlt t; omega⟩

/-- Row `q` of point `t`'s query tile, as a row of the sequence: tile `t mod 4` holds rows `512·(t mod 4) …`. -/
def row (t : Fin cfg0.N) (q : Fin 512) : Fin 2048 := ⟨512 * (t.val % 4) + q.val, by omega⟩

theorem bt_val (t : Fin cfg0.N) : (bt t).val = t.val / 4 := rfl
theorem row_val (t : Fin cfg0.N) (q : Fin 512) : (row t q).val = 512 * (t.val % 4) + q.val := rfl

/-- The windows' block indices at every point, decided over the grid: the query, mask and output windows are at
    (batch element, tile, 0); the key and value windows at (batch element, 0, 0); the three projections at (0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 4 ∧ win0_6.index t (1 : Fin 3) = t.val % 4 ∧ win0_6.index t (2 : Fin 3) = 0
    ∧ win0_7.index t (0 : Fin 3) = t.val / 4 ∧ win0_7.index t (1 : Fin 3) = t.val % 4 ∧ win0_7.index t (2 : Fin 3) = 0 :=
  (by decide +kernel : ∀ t : Fin grid0.N, _)

/-! Each input window's block at a point, read at an entry, is an entry of its argument array: a block's coordinate on
    an axis is the block index times the block size plus the coordinate inside the block. -/

theorem iblk0_apply (c : Dev nD) (t : Fin cfg0.N) (q : Fin 512) (d : Fin 64) :
    (iblk m c 0 t : Vec F S1x512x64 .f32) (ix3 (0 : Fin 1) q d)
      = V m c main_arg0 (ix3 (bt t) (row t q) d) := by
  show V m c main_arg0 (((cfg0.win 0).blk t).view.emb (ix3 (0 : Fin 1) q d)) = _
  refine congrArg _ (funext fun a => Fin.ext ?_)
  obtain ⟨e00, e01, e02, e10, e11, e12, e20, e21, e22, e30, e31, e40, e41, e50, e51, e60, e61, e62, e70, e71, e72⟩ := idx_facts t
  match a with
  | ⟨0, _⟩ => show win0_0.index t (0 : Fin 3) * 1 + 1 * 0 = t.val / 4; omega
  | ⟨1, _⟩ => show win0_0.index t (1 : Fin 3) * 512 + 1 * q.val = 512 * (t.val % 4) + q.val; omega
  | ⟨2, _⟩ => show win0_0.index t (2 : Fin 3) * 64 + 1 * d.val = d.val; omega

theorem iblk1_apply (c : Dev nD) (t : Fin cfg0.N) (q : Fin 2048) (d : Fin 64) :
    (iblk m c 1 t : Vec F S1x2048x64 .f32) (ix3 (0 : Fin 1) q d)
      = V m c main_arg1 (ix3 (bt t) q d) := by
  show V m c main_arg1 (((cfg0.win 1).blk t).view.emb (ix3 (0 : Fin 1) q d)) = _
  refine congrArg _ (funext fun a => Fin.ext ?_)
  obtain ⟨e00, e01, e02, e10, e11, e12, e20, e21, e22, e30, e31, e40, e41, e50, e51, e60, e61, e62, e70, e71, e72⟩ := idx_facts t
  match a with
  | ⟨0, _⟩ => show win0_1.index t (0 : Fin 3) * 1 + 1 * 0 = t.val / 4; omega
  | ⟨1, _⟩ => show win0_1.index t (1 : Fin 3) * 2048 + 1 * q.val = q.val; omega
  | ⟨2, _⟩ => show win0_1.index t (2 : Fin 3) * 64 + 1 * d.val = d.val; omega

theorem iblk2_apply (c : Dev nD) (t : Fin cfg0.N) (q : Fin 2048) (d : Fin 64) :
    (iblk m c 2 t : Vec F S1x2048x64 .f32) (ix3 (0 : Fin 1) q d)
      = V m c main_arg2 (ix3 (bt t) q d) := by
  show V m c main_arg2 (((cfg0.win 2).blk t).view.emb (ix3 (0 : Fin 1) q d)) = _
  refine congrArg _ (funext fun a => Fin.ext ?_)
  obtain ⟨e00, e01, e02, e10, e11, e12, e20, e21, e22, e30, e31, e40, e41, e50, e51, e60, e61, e62, e70, e71, e72⟩ := idx_facts t
  match a with
  | ⟨0, _⟩ => show win0_2.index t (0 : Fin 3) * 1 + 1 * 0 = t.val / 4; omega
  | ⟨1, _⟩ => show win0_2.index t (1 : Fin 3) * 2048 + 1 * q.val = q.val; omega
  | ⟨2, _⟩ => show win0_2.index t (2 : Fin 3) * 64 + 1 * d.val = d.val; omega

theorem iblk3_apply (c : Dev nD) (t : Fin cfg0.N) (a b : Fin 64) :
    (iblk m c 3 t : Vec F S64x64 .f32) (ix2 a b) = V m c main_arg4 (ix2 a b) := by
  show V m c main_arg4 (((cfg0.win 3).blk t).view.emb (ix2 a b)) = _
  refine congrArg _ (funext fun x => Fin.ext ?_)
  obtain ⟨e00, e01, e02, e10, e11, e12, e20, e21, e22, e30, e31, e40, e41, e50, e51, e60, e61, e62, e70, e71, e72⟩ := idx_facts t
  match x with
  | ⟨0, _⟩ => show win0_3.index t (0 : Fin 2) * 64 + 1 * a.val = a.val; omega
  | ⟨1, _⟩ => show win0_3.index t (1 : Fin 2) * 64 + 1 * b.val = b.val; omega

theorem iblk4_apply (c : Dev nD) (t : Fin cfg0.N) (a b : Fin 64) :
    (iblk m c 4 t : Vec F S64x64 .f32) (ix2 a b) = V m c main_arg5 (ix2 a b) := by
  show V m c main_arg5 (((cfg0.win 4).blk t).view.emb (ix2 a b)) = _
  refine congrArg _ (funext fun x => Fin.ext ?_)
  obtain ⟨e00, e01, e02, e10, e11, e12, e20, e21, e22, e30, e31, e40, e41, e50, e51, e60, e61, e62, e70, e71, e72⟩ := idx_facts t
  match x with
  | ⟨0, _⟩ => show win0_4.index t (0 : Fin 2) * 64 + 1 * a.val = a.val; omega
  | ⟨1, _⟩ => show win0_4.index t (1 : Fin 2) * 64 + 1 * b.val = b.val; omega

theorem iblk5_apply (c : Dev nD) (t : Fin cfg0.N) (a b : Fin 64) :
    (iblk m c 5 t : Vec F S64x64 .f32) (ix2 a b) = V m c main_arg6 (ix2 a b) := by
  show V m c main_arg6 (((cfg0.win 5).blk t).view.emb (ix2 a b)) = _
  refine congrArg _ (funext fun x => Fin.ext ?_)
  obtain ⟨e00, e01, e02, e10, e11, e12, e20, e21, e22, e30, e31, e40, e41, e50, e51, e60, e61, e62, e70, e71, e72⟩ := idx_facts t
  match x with
  | ⟨0, _⟩ => show win0_5.index t (0 : Fin 2) * 64 + 1 * a.val = a.val; omega
  | ⟨1, _⟩ => show win0_5.index t (1 : Fin 2) * 64 + 1 * b.val = b.val; omega

theorem iblk6_apply (c : Dev nD) (t : Fin cfg0.N) (q : Fin 512) (d : Fin 2048) :
    (iblk m c 6 t : Vec F S1x512x2048 .f32) (ix3 (0 : Fin 1) q d)
      = V m c main_arg3 (ix3 (bt t) (row t q) d) := by
  show V m c main_arg3 (((cfg0.win 6).blk t).view.emb (ix3 (0 : Fin 1) q d)) = _
  refine congrArg _ (funext fun a => Fin.ext ?_)
  obtain ⟨e00, e01, e02, e10, e11, e12, e20, e21, e22, e30, e31, e40, e41, e50, e51, e60, e61, e62, e70, e71, e72⟩ := idx_facts t
  match a with
  | ⟨0, _⟩ => show win0_6.index t (0 : Fin 3) * 1 + 1 * 0 = t.val / 4; omega
  | ⟨1, _⟩ => show win0_6.index t (1 : Fin 3) * 512 + 1 * q.val = 512 * (t.val % 4) + q.val; omega
  | ⟨2, _⟩ => show win0_6.index t (2 : Fin 3) * 2048 + 1 * d.val = d.val; omega

end Cert.Attn.Blocks

end
-- ==== Proof.Spec.lean ====
/-
  Masked attention over projected queries, keys and values, as functions on the extended reals.

  For one query row with raw scores `a k` (the inner products of the projected query with the projected keys) and mask
  row `mk k`, the weight of key `k` is written in two arrangements:

  * scaled by division and exponentiated as it stands: `w k = e^(a k / c) · mk k`, normalised by `z + Σ_j w j`;
  * scaled by a product, shifted by the row's maximum before the exponential:
    `w' k = e^(a k · s − max_j (a j · s)) · mk k`, normalised by `Σ_j w' j`.

  The result row is `Σ_k p k · V k e` over the projected values `V`. The whole result array `G` is stated in the first
  arrangement, from the seven argument arrays.
-/
import Idealize.ShloMosaic.PureOps.Ideal
import Idealize.ShloMosaic.Lib.ValueIdx

noncomputable section

open scoped BigOperators

namespace Cert.Attn

open Idealize.ShloMosaic Idealize.ShloMosaic.ValueIdx

section Row

variable {κ : Type} [Fintype κ]

/-- The weight of key `k` in a row of raw scores `a` with mask row `mk`: `e^(a k / c) · mk k`. -/
def wRef (c : EReal) (a mk : κ → EReal) (k : κ) : EReal := Ideal.exp (Ideal.div (a k) c) * mk k

/-- That weight over the row's total from `z`. -/
def pRef (c z : EReal) (a mk : κ → EReal) (k : κ) : EReal := Ideal.div (wRef c a mk k) (z + ∑ j, wRef c a mk j)

/-- The weight with the scores scaled by the factor `s` and shifted by their maximum (folded from `b`):
    `e^(a k · s − max_j (a j · s)) · mk k`. -/
def wKer (s b : EReal) (a mk : κ → EReal) (k : κ) : EReal :=
  Ideal.exp (a k * s - (Finset.univ : Finset κ).fold max b (fun j => a j * s)) * mk k

/-- That weight over the row's total. -/
def pKer (s b : EReal) (a mk : κ → EReal) (k : κ) : EReal := Ideal.div (wKer s b a mk k) (∑ j, wKer s b a mk j)

end Row

/-- The argument arrays' shapes: a batch of 16 sequences of 2048 rows of 64 features; a 2048 × 2048 mask per batch
    element; a 64 × 64 projection. -/
abbrev SX : Shape := ⟨3, ![16, 2048, 64]⟩
abbrev SM : Shape := ⟨3, ![16, 2048, 2048]⟩
abbrev SW : Shape := ⟨2, ![64, 64]⟩

/-- A projected entry: row `s` of batch element `b` of `X` times column `e` of `W`. -/
def proj (X : SX.Idx → EReal) (W : SW.Idx → EReal) (b : Fin 16) (s : Fin 2048) (e : Fin 64) : EReal :=
  ∑ d : Fin 64, X (ix3 b s d) * W (ix2 d e)

/-- The raw score of query row `q` against key row `k` in batch element `b`. -/
def raw (X0 X1 : SX.Idx → EReal) (W4 W5 : SW.Idx → EReal) (b : Fin 16) (q k : Fin 2048) : EReal :=
  ∑ d : Fin 64, proj X0 W4 b q d * proj X1 W5 b k d

/-- One entry of the result: the weights of row `q` against the projected values. -/
def outAt (c z : EReal) (X0 X1 X2 : SX.Idx → EReal) (M : SM.Idx → EReal) (W4 W5 W6 : SW.Idx → EReal)
    (b : Fin 16) (q : Fin 2048) (e : Fin 64) : EReal :=
  ∑ k : Fin 2048, pRef c z (raw X0 X1 W4 W5 b q) (fun j => M (ix3 b q j)) k * proj X2 W6 b k e

/-- The whole result array. -/
def G (c z : EReal) (X0 X1 X2 : SX.Idx → EReal) (M : SM.Idx → EReal) (W4 W5 W6 : SW.Idx → EReal) : SX.Idx → EReal :=
  fun i => outAt c z X0 X1 X2 M W4 W5 W6 (i 0) (i 1) (i 2)

theorem G_ix3 (c z : EReal) (X0 X1 X2 : SX.Idx → EReal) (M : SM.Idx → EReal) (W4 W5 W6 : SW.Idx → EReal)
    (b : Fin 16) (q : Fin 2048) (e : Fin 64) :
    G c z X0 X1 X2 M W4 W5 W6 (ix3 b q e) = outAt c z X0 X1 X2 M W4 W5 W6 b q e := rfl

end Cert.Attn

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«138952_j47854525612135_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.Payload.lean ====
/-
  The three values the kernel's body stores, read at an entry, on the extended reals.

  The body stores the projected keys and the projected values (each a 2048 × 64 product of an argument block with a
  64 × 64 matrix) and the result block: for each of 512 query rows, the projected query's inner products with the
  projected keys are scaled by a factor, shifted by the row's maximum, exponentiated and multiplied by the mask row;
  the row is divided by its sum and multiplied into the projected values. Each entry is read here as a finite sum:
  the two products as inner products of a row with a column, the result as the weighted sum of a column of the
  projected values with the row's normalised weights.
-/
import proofs.«138952_j47854525612135_2_alg».proof.Proof.Gen.KernelIdeal.Skeleton
import proofs.«138952_j47854525612135_2_alg».proof.Proof.Spec
import proofs.«138952_j47854525612135_2_alg».proof.Proof.LibMatmulPlain
import proofs.«138952_j47854525612135_2_alg».proof.Proof.LibRows
import Idealize.ShloMosaic.Lib.ValueLayout

noncomputable section

open scoped BigOperators

namespace Cert.Attn.Ker

open Idealize.ShloMosaic Idealize.ShloMosaic.ValueIdx Cert.KernelIdeal

/-- A block with a leading unit axis, flattened to a matrix and multiplied into a matrix from the zero splat, read at
    an entry: the inner product of the block's row with the matrix's column. The narrowing format changes on the way
    are the identity on extended reals. -/
theorem block_matmul_apply {m k n : Nat} (D : DotDims ⟨2, ![m, k]⟩ ⟨2, ![k, n]⟩ ⟨2, ![m, n]⟩)
    (hD : D = DotDims.plain m k n) (x : FVec Ideal ⟨3, ![1, m, k]⟩ .f32) (w : FVec Ideal ⟨2, ![k, n]⟩ .f32)
    (hc : (⟨3, ![1, m, k]⟩ : Shape).ShapeCasts ⟨2, ![m, k]⟩) (hlt : FTy.bits .bf16 < FTy.bits .f32)
    (r : Fin m) (e : Fin n) :
    matmul D none (truncf .bf16 (shapeCast ⟨2, ![m, k]⟩ x hc) hlt) (truncf .bf16 w hlt)
        (constant (F := Ideal) ⟨2, ![m, n]⟩ .f32 0x00000000#32) (ix2 r e)
      = ∑ d : Fin k, x (ix3 (0 : Fin 1) r d) * w (ix2 d e) := by
  subst hD
  refine (Cert.LibMatmulPlain.matmul_plain_zero_apply none _ _ r e).trans ?_
  exact Finset.sum_congr rfl fun d _ => congrArg (· * w (ix2 d e)) (shapeCast_1ab_ab_apply x hc r d)

/-- The printed dimension records are the plain ones. -/
theorem dot_kv_plain : dot_S2048x64_S64x64_S2048x64_1_0_0_1_n_n = DotDims.plain 2048 64 64 := rfl

/-- The stored projected keys at an entry: row `k` of the key block times column `e` of the matrix. -/
theorem pay1_apply (x1 : Vec Ideal S1x2048x64 .f32) (x4 : Vec Ideal S64x64 .f32) (k : Fin 2048) (e : Fin 64) :
    Gen.k0_pay1 (F := Ideal) x1 x4 (ix2 k e) = ∑ d : Fin 64, x1 (ix3 (0 : Fin 1) k d) * x4 (ix2 d e) := by
  unfold Gen.k0_pay1
  refine (congrFun (shapeCast_self _ _) (ix2 k e)).trans ?_
  exact block_matmul_apply _ dot_kv_plain x1 x4 _ _ k e

/-- The stored projected values at an entry: row `k` of the value block times column `e` of the matrix. -/
theorem pay2_apply (x2 : Vec Ideal S1x2048x64 .f32) (x5 : Vec Ideal S64x64 .f32) (k : Fin 2048) (e : Fin 64) :
    Gen.k0_pay2 (F := Ideal) x2 x5 (ix2 k e) = ∑ d : Fin 64, x2 (ix3 (0 : Fin 1) k d) * x5 (ix2 d e) := by
  unfold Gen.k0_pay2
  refine (congrFun (shapeCast_self _ _) (ix2 k e)).trans ?_
  exact block_matmul_apply _ dot_kv_plain x2 x5 _ _ k e

/-! ## The result block -/

section Row

variable {n m : Nat}

/-- The weights of a row as the body computes them — the scores times the factor, less the row's maximum (folded from
    the word `b` and repeated along the row), exponentiated, times the mask — read at an entry: the row's weight in
    the arrangement that shifts by the maximum. -/
theorem weights_apply (s : Ideal .f32) (b : BitVec (FTy.bits .f32)) (A M : FVec Ideal ⟨2, ![n, m]⟩ .f32)
    (h : (⟨2, ![n, m]⟩ : Shape).Reduces [1] ⟨1, ![n]⟩) (hφ : FKind.Formats .f32)
    (hacc : b = FKind.maximumf.neutral .f32 hφ)
    (hc : (⟨1, ![n]⟩ : Shape).ShapeCasts ⟨2, ![n, 1]⟩) (hb : (⟨2, ![n, 1]⟩ : Shape).Broadcasts ⟨2, ![n, m]⟩)
    (q : Fin n) (j : Fin m) :
    mulf (exp (subf (mulf A (broadcast ⟨2, ![n, m]⟩ s))
          (broadcastTo ⟨2, ![n, m]⟩ (shapeCast ⟨2, ![n, 1]⟩
            (multiReduction .maximumf [1] ⟨1, ![n]⟩ (mulf A (broadcast ⟨2, ![n, m]⟩ s)) b h hφ hacc) hc) hb))) M (ix2 q j)
      = Cert.Attn.wKer s (Ideal.ofBits .f32 b) (fun j => A (ix2 q j)) (fun j => M (ix2 q j)) j := by
  unfold Cert.Attn.wKer
  refine congrArg (fun t => Ideal.exp (A (ix2 q j) * s - t) * M (ix2 q j)) ?_
  exact (Cert.LibRows.column_broadcast_apply _ hc hb q j).trans (Cert.LibRows.lane_max_apply _ b h hφ hacc q)

/-- A matrix divided entry by entry by its rows' sums (each sum repeated along its row), read at an entry: the entry
    over the sum of its row. -/
theorem normalise_apply (z : BitVec (FTy.bits .f32)) (W : FVec Ideal ⟨2, ![n, m]⟩ .f32)
    (h : (⟨2, ![n, m]⟩ : Shape).Reduces [1] ⟨1, ![n]⟩) (hφ : FKind.Formats .f32)
    (hacc : z = FKind.add.neutral .f32 hφ)
    (hc : (⟨1, ![n]⟩ : Shape).ShapeCasts ⟨2, ![n, 1]⟩) (hb : (⟨2, ![n, 1]⟩ : Shape).Broadcasts ⟨2, ![n, m]⟩)
    (q : Fin n) (j : Fin m) :
    divf W (broadcastTo ⟨2, ![n, m]⟩ (shapeCast ⟨2, ![n, 1]⟩
            (multiReduction .add [1] ⟨1, ![n]⟩ W z h hφ hacc) hc) hb) (ix2 q j)
      = Ideal.div (W (ix2 q j)) (∑ i : Fin m, W (ix2 q i)) := by
  refine congrArg (fun t => Ideal.div (W (ix2 q j)) t) ?_
  exact (Cert.LibRows.column_broadcast_apply _ hc hb q j).trans (Cert.LibRows.lane_sum_apply W z h hφ hacc q)

/-- The normalised weights of a row as the body computes them, read at an entry: the row's weight over the row's total,
    in the arrangement that shifts by the maximum. -/
theorem probs_apply (s : Ideal .f32) (b z : BitVec (FTy.bits .f32)) (A M : FVec Ideal ⟨2, ![n, m]⟩ .f32)
    (h : (⟨2, ![n, m]⟩ : Shape).Reduces [1] ⟨1, ![n]⟩) (hφ hφ' : FKind.Formats .f32)
    (hacc : b = FKind.maximumf.neutral .f32 hφ) (hacc' : z = FKind.add.neutral .f32 hφ')
    (hc : (⟨1, ![n]⟩ : Shape).ShapeCasts ⟨2, ![n, 1]⟩) (hb : (⟨2, ![n, 1]⟩ : Shape).Broadcasts ⟨2, ![n, m]⟩)
    (q : Fin n) (j : Fin m) :
    divf
        (mulf (exp (subf (mulf A (broadcast ⟨2, ![n, m]⟩ s))
          (broadcastTo ⟨2, ![n, m]⟩ (shapeCast ⟨2, ![n, 1]⟩
            (multiReduction .maximumf [1] ⟨1, ![n]⟩ (mulf A (broadcast ⟨2, ![n, m]⟩ s)) b h hφ hacc) hc) hb))) M)
        (broadcastTo ⟨2, ![n, m]⟩ (shapeCast ⟨2, ![n, 1]⟩
          (multiReduction .add [1] ⟨1, ![n]⟩
            (mulf (exp (subf (mulf A (broadcast ⟨2, ![n, m]⟩ s))
              (broadcastTo ⟨2, ![n, m]⟩ (shapeCast ⟨2, ![n, 1]⟩
                (multiReduction .maximumf [1] ⟨1, ![n]⟩ (mulf A (broadcast ⟨2, ![n, m]⟩ s)) b h hφ hacc) hc) hb))) M)
            z h hφ' hacc') hc) hb)
        (ix2 q j)
      = Cert.Attn.pKer s (Ideal.ofBits .f32 b) (fun j => A (ix2 q j)) (fun j => M (ix2 q j)) j := by
  refine (normalise_apply z _ h hφ' hacc' hc hb q j).trans ?_
  unfold Cert.Attn.pKer
  exact congrArg₂ Ideal.div (weights_apply s b A M h hφ hacc hc hb q j)
    (Finset.sum_congr rfl fun i _ => weights_apply s b A M h hφ hacc hc hb q i)

end Row

/-- A product with the plain dimension numbers, under whatever name the record goes, from the zero splat at an entry. -/
theorem matmul_zero_apply {m k n : Nat} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂)
    (a : Fin m) (b : Fin n) :
    matmul D none A B (constant (F := Ideal) ⟨2, ![m, n]⟩ .f32 0x00000000#32) (ix2 a b)
      = ∑ c : Fin k, A (ix2 a c) * B (ix2 c b) := by
  subst hD
  exact Cert.LibMatmulPlain.matmul_plain_zero_apply none A B a b

/-- The raw scores at an entry: the projected query row (a block's row times the matrix) against a key row, the keys
    entering the product transposed. -/
theorem scores_apply {n k m : Nat} (D1 : DotDims ⟨2, ![n, k]⟩ ⟨2, ![k, k]⟩ ⟨2, ![n, k]⟩)
    (hD1 : D1 = DotDims.plain n k k) (D2 : DotDims ⟨2, ![n, k]⟩ ⟨2, ![k, m]⟩ ⟨2, ![n, m]⟩)
    (hD2 : D2 = DotDims.plain n k m) (x : FVec Ideal ⟨3, ![1, n, k]⟩ .f32) (w : FVec Ideal ⟨2, ![k, k]⟩ .f32)
    (K : FVec Ideal ⟨2, ![m, k]⟩ .bf16) (hc : (⟨3, ![1, n, k]⟩ : Shape).ShapeCasts ⟨2, ![n, k]⟩)
    (hlt : FTy.bits .bf16 < FTy.bits .f32) (ht : (⟨2, ![m, k]⟩ : Shape).Transposes [1, 0] ⟨2, ![k, m]⟩)
    (q : Fin n) (j : Fin m) :
    matmul D2 none
        (truncf .bf16 (matmul D1 none (truncf .bf16 (shapeCast ⟨2, ![n, k]⟩ x hc) hlt) (truncf .bf16 w hlt)
          (constant (F := Ideal) ⟨2, ![n, k]⟩ .f32 0x00000000#32)) hlt)
        (transpose ⟨2, ![k, m]⟩ [1, 0] K ht) (constant (F := Ideal) ⟨2, ![n, m]⟩ .f32 0x00000000#32) (ix2 q j)
      = ∑ d : Fin k, (∑ d' : Fin k, x (ix3 (0 : Fin 1) q d') * w (ix2 d' d)) * K (ix2 j d) := by
  refine (matmul_zero_apply D2 hD2 _ _ q j).trans ?_
  refine Finset.sum_congr rfl fun d _ => ?_
  exact congrArg₂ (· * ·) (block_matmul_apply D1 hD1 x w hc hlt q d) (transpose_ix2_apply K ht d j)

/-- The three dimension records of the result block's products are the plain ones too. -/
theorem dot_q_plain : dot_S512x64_S64x64_S512x64_1_0_0_1_n_n = DotDims.plain 512 64 64 := rfl
theorem dot_qk_plain : dot_S512x64_S64x2048_S512x2048_1_0_0_1_n_n = DotDims.plain 512 64 2048 := rfl
theorem dot_pv_plain : dot_S512x2048_S2048x64_S512x64_1_0_0_1_n_n = DotDims.plain 512 2048 64 := rfl

/-- The stored result block at an entry: the row's normalised weights against column `e` of the projected values. -/
theorem pay3_apply (x0 : Vec Ideal S1x512x64 .f32) (x3 : Vec Ideal S64x64 .f32) (kp vp : Vec Ideal S2048x64 .bf16)
    (x6 : Vec Ideal S1x512x2048 .f32) (q : Fin 512) (e : Fin 64) :
    Gen.k0_pay3 (F := Ideal) x0 x3 kp vp x6 (ix3 (0 : Fin 1) q e)
      = ∑ k : Fin 2048,
          Cert.Attn.pKer (Ideal.ofBits .f32 0x3E000000#32) (Ideal.ofBits .f32 0xFF800000#32)
            (fun j : Fin 2048 => ∑ d : Fin 64, (∑ d' : Fin 64, x0 (ix3 (0 : Fin 1) q d') * x3 (ix2 d' d)) * kp (ix2 j d))
            (fun j : Fin 2048 => x6 (ix3 (0 : Fin 1) q j)) k
          * vp (ix2 k e) := by
  unfold Gen.k0_pay3
  refine (shapeCast_ab_1ab_apply _ Gen.shapeCasts_S512x64_S1x512x64 (0 : Fin 1) q e).trans ?_
  refine (matmul_zero_apply (φ₁ := .bf16) (φ₂ := .bf16) _ dot_pv_plain _ vp q e).trans ?_
  refine Finset.sum_congr rfl fun k _ => congrArg (· * vp (ix2 k e)) ?_
  refine (truncf_apply _ Gen.bitsLt_bf16_f32 (ix2 q k)).trans ?_
  refine (probs_apply _ _ _ _ _ Gen.reduces_S512x2048_S512 _ _ _ _ Gen.shapeCasts_S512_S512x1
    Gen.broadcasts_S512x1_S512x2048 q k).trans ?_
  exact congrArg₂ (fun a mk => Cert.Attn.pKer _ _ a mk k)
    (funext fun j => scores_apply _ dot_q_plain _ dot_qk_plain x0 x3 kp _ _ _ q j)
    (funext fun j => shapeCast_1ab_ab_apply x6 Gen.shapeCasts_S1x512x2048_S512x2048 q j)

end Cert.Attn.Ker

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.Law.lean ====
/-
  Two laws of the attention row on the extended reals.

  * When the raw scores and the mask row are real numbers, the two arrangements of the normalised weights agree:
    scaling by the product with 1/8 and shifting by the row's maximum `M` multiplies every weight, and hence the
    row's total, by the positive real `e^(-M)`, and a quotient is unchanged when numerator and denominator are
    multiplied by the same positive real (also when the denominator is zero, where only the numerator's sign counts).
  * The raw scores are real numbers when the argument arrays are: finite sums and products of reals are reals.
-/
import proofs.«138952_j47854525612135_2_alg».proof.Proof.Spec
import proofs.«138952_j47854525612135_2_alg».proof.Proof.LibFolds

open scoped BigOperators

namespace Cert.Attn

open Idealize.ShloMosaic Idealize.ShloMosaic.ValueIdx

/-- A quotient of reals is unchanged when numerator and denominator are multiplied by the same positive real. When the
    denominator is zero both quotients are decided by the numerator's sign, which the factor keeps. -/
theorem div_scale {c : ℝ} (hc : 0 < c) (x D : ℝ) :
    Ideal.div ((c * x : ℝ) : EReal) ((c * D : ℝ) : EReal) = Ideal.div (x : EReal) (D : EReal) := by
  by_cases hD : D = 0
  · subst hD
    have hpos : (0 : EReal) < ((c * x : ℝ) : EReal) ↔ (0 : EReal) < (x : EReal) := by
      rw [EReal.coe_pos, EReal.coe_pos]
      exact mul_pos_iff_of_pos_left hc
    rw [mul_zero, EReal.coe_zero, Ideal.div, Ideal.div, if_pos rfl, if_pos rfl]
    by_cases hx : (0 : EReal) < (x : EReal)
    · rw [if_pos (hpos.2 hx), if_pos hx]
    · rw [if_neg (fun h => hx (hpos.1 h)), if_neg hx]
  · have hcD : c * D ≠ 0 := mul_ne_zero hc.ne' hD
    rw [Ideal.div_coe hcD, Ideal.div_coe hD, ← EReal.coe_mul, ← EReal.coe_mul]
    congr 1
    field_simp

section Row

variable {κ : Type} [Fintype κ]

/-- With real scores `α` and a real mask row `μ`, the weight scaled by division by 8 is the real
    `e^(α k · (1/8)) · μ k`. -/
theorem wRef_coe (α μ : κ → ℝ) (k : κ) :
    wRef ((8 : ℝ) : EReal) (fun j => (α j : EReal)) (fun j => (μ j : EReal)) k
      = ((Real.exp (α k * (1 / 8)) * μ k : ℝ) : EReal) := by
  rw [wRef, Ideal.div_coe (by norm_num : (8 : ℝ) ≠ 0), ← EReal.coe_mul, Ideal.exp_coe, ← EReal.coe_mul]

/-- With real scores and mask row, and the row's maximum of the scaled scores the real `M`, the shifted weight is
    `e^(-M)` times the unshifted one. -/
theorem wKer_coe (α μ : κ → ℝ) (M : ℝ)
    (hM : (Finset.univ : Finset κ).fold max ⊥ (fun j => (α j : EReal) * ((1 / 8 : ℝ) : EReal)) = (M : EReal)) (k : κ) :
    wKer ((1 / 8 : ℝ) : EReal) ⊥ (fun j => (α j : EReal)) (fun j => (μ j : EReal)) k
      = ((Real.exp (-M) * (Real.exp (α k * (1 / 8)) * μ k) : ℝ) : EReal) := by
  rw [wKer, hM, ← EReal.coe_mul, ← EReal.coe_sub, Ideal.exp_coe, ← EReal.coe_mul]
  congr 1
  rw [sub_eq_add_neg, Real.exp_add]
  ring

/-- The two arrangements of the normalised weights agree on real scores and a real mask row. -/
theorem pKer_eq_pRef [Nonempty κ] (a mk : κ → EReal)
    (ha : ∀ k, ∃ r : ℝ, a k = (r : EReal)) (hm : ∀ k, ∃ r : ℝ, mk k = (r : EReal)) (k : κ) :
    pKer ((1 / 8 : ℝ) : EReal) ⊥ a mk k = pRef ((8 : ℝ) : EReal) 0 a mk k := by
  choose α hα using ha
  choose μ hμ using hm
  obtain rfl : a = fun j => (α j : EReal) := funext hα
  obtain rfl : mk = fun j => (μ j : EReal) := funext hμ
  obtain ⟨M, hM⟩ := LibFolds.isReal_fold_max (Finset.univ : Finset κ) Finset.univ_nonempty
    (fun j => (α j : EReal) * ((1 / 8 : ℝ) : EReal)) (fun j _ => ⟨α j * (1 / 8), (EReal.coe_mul _ _).symm⟩)
  rw [pKer, pRef, zero_add]
  simp only [wKer_coe α μ M hM, wRef_coe α μ]
  rw [← LibFolds.coe_sum, ← LibFolds.coe_sum, ← Finset.mul_sum]
  exact div_scale (Real.exp_pos _) _ _

end Row

/-- A finite sum of real numbers is a real number. -/
theorem sum_real {ι : Type} [Fintype ι] (f : ι → EReal) (hf : ∀ i, ∃ r : ℝ, f i = (r : EReal)) :
    ∃ r : ℝ, ∑ i, f i = (r : EReal) := by
  choose g hg using hf
  exact ⟨∑ i, g i, by rw [LibFolds.coe_sum]; exact Finset.sum_congr rfl fun i _ => hg i⟩

/-- A projected entry of real arrays is a real number. -/
theorem proj_real (X : SX.Idx → EReal) (W : SW.Idx → EReal)
    (hX : ∀ i, ∃ r : ℝ, X i = (r : EReal)) (hW : ∀ i, ∃ r : ℝ, W i = (r : EReal))
    (b : Fin 16) (s : Fin 2048) (e : Fin 64) : ∃ r : ℝ, proj X W b s e = (r : EReal) := by
  refine sum_real _ fun d => ?_
  obtain ⟨x, hx⟩ := hX (ix3 b s d)
  obtain ⟨w, hw⟩ := hW (ix2 d e)
  exact ⟨x * w, by rw [hx, hw, EReal.coe_mul]⟩

/-- The raw scores of real arrays are real numbers. -/
theorem raw_real (X0 X1 : SX.Idx → EReal) (W4 W5 : SW.Idx → EReal)
    (h0 : ∀ i, ∃ r : ℝ, X0 i = (r : EReal)) (h1 : ∀ i, ∃ r : ℝ, X1 i = (r : EReal))
    (h4 : ∀ i, ∃ r : ℝ, W4 i = (r : EReal)) (h5 : ∀ i, ∃ r : ℝ, W5 i = (r : EReal))
    (b : Fin 16) (q k : Fin 2048) : ∃ r : ℝ, raw X0 X1 W4 W5 b q k = (r : EReal) := by
  refine sum_real _ fun d => ?_
  obtain ⟨x, hx⟩ := proj_real X0 W4 h0 h4 b q d
  obtain ⟨y, hy⟩ := proj_real X1 W5 h1 h5 b k d
  exact ⟨x * y, by rw [hx, hy, EReal.coe_mul]⟩

end Cert.Attn
-- ==== Proof.Consts.lean ====
/-
  The four float words the two programs spell, as the extended reals they denote: 8 (the reference's divisor), 1/8 (the
  kernel's factor), −∞ (where the kernel's row maximum starts) and 0 (where the sums start).
-/
import Idealize.ShloMosaic.PureOps.Ideal

noncomputable section

namespace Cert.Attn.Consts

open Idealize.ShloMosaic

/-- `8.0` denotes the real 8. -/
theorem ofBits_eight : Ideal.ofBits .f32 0x41000000#32 = ((8 : ℝ) : EReal) := by
  simp [Ideal.ofBits, Ideal.ieee, -EReal.coe_mul]; norm_num

/-- `0.125` denotes the real 1/8. -/
theorem ofBits_eighth : Ideal.ofBits .f32 0x3E000000#32 = ((1 / 8 : ℝ) : EReal) := by
  simp [Ideal.ofBits, Ideal.ieee, -EReal.coe_mul]; norm_num

/-- The pattern of −∞ denotes the bottom of the extended reals. -/
theorem ofBits_neg_inf : Ideal.ofBits .f32 0xFF800000#32 = ⊥ := by
  simp [Ideal.ofBits, Ideal.ieee]

/-- `+0.0` denotes 0. -/
theorem ofBits_zero : Ideal.ofBits .f32 0x00000000#32 = 0 := by
  simp [Ideal.ofBits, Ideal.ieee]

end Cert.Attn.Consts

end
-- ==== Proof.KernelValue.lean ====
/-
  The kernel's result array, read off its run.

  The kernel keeps the projected keys and values of the current batch element in two scratch buffers: it computes them at
  the batch element's first query tile and reuses them at the three later tiles. So by induction over the grid points,
  after every point the scratch buffers hold the projections of THAT point's batch element, and the output block of the
  point is the attention of its 512 query rows against them. Entry by entry such a block is the whole result at rows
  `512·(t mod 4) …` of batch element `t / 4` — here the precondition enters: for real arguments the scores are real, and
  the weights shifted by the row maximum and normalised are the weights as they stand, normalised. The 64 blocks tile
  the result array, which therefore ends as the whole result.
-/
import proofs.«138952_j47854525612135_2_alg».proof.Proof.Pieces
import proofs.«138952_j47854525612135_2_alg».proof.Proof.Blocks
import proofs.«138952_j47854525612135_2_alg».proof.Proof.Payload
import proofs.«138952_j47854525612135_2_alg».proof.Proof.Spec
import proofs.«138952_j47854525612135_2_alg».proof.Proof.Law
import proofs.«138952_j47854525612135_2_alg».proof.Proof.Consts
import proofs.«138952_j47854525612135_2_alg».proof.Proof.Gen.KernelIdeal.Value

set_option maxRecDepth 16384

noncomputable section

open scoped BigOperators

namespace Cert.Attn.Carried

open Idealize.ShloMosaic Idealize.ShloMosaic.TcCoe Idealize.ShloMosaic.ValueIdx Cert.KernelIdeal Cert.KernelIdeal.Gen
open Cert.Attn.Blocks

variable (m : (ℓ : Loc nD τ sig) → Buf (Elt Ideal) ℓ)

/-- The projection of batch element `b` of `X` through `W`, as a 2048 × 64 array. -/
def projArr (X : SX.Idx → EReal) (W : SW.Idx → EReal) (b : Fin 16) : Vec Ideal S2048x64 .bf16 :=
  fun j => Attn.proj X W b (j 0) (j 1)

theorem projArr_ix2 (X : SX.Idx → EReal) (W : SW.Idx → EReal) (b : Fin 16) (k : Fin 2048) (e : Fin 64) :
    projArr X W b (ix2 k e) = Attn.proj X W b k e := rfl

/-- The projection of a point's key block through its projection block is the projected keys of the point's batch element. -/
theorem pay1_eq (c : Dev nD) (t : Fin cfg0.N) :
    k0_pay1 (F := Ideal) (iblk m c 1 t) (iblk m c 4 t) = projArr (V m c main_arg1) (V m c main_arg5) (bt t) := by
  funext j
  obtain ⟨k, e, rfl⟩ : ∃ (k : Fin 2048) (e : Fin 64), j = ix2 k e := ⟨j 0, j 1, eq_ix2 j⟩
  refine (Ker.pay1_apply (iblk m c 1 t) (iblk m c 4 t) k e).trans ?_
  rw [projArr_ix2]
  unfold Attn.proj
  refine Finset.sum_congr rfl fun d _ => ?_
  rw [iblk1_apply, iblk4_apply]

/-- Likewise for the values. -/
theorem pay2_eq (c : Dev nD) (t : Fin cfg0.N) :
    k0_pay2 (F := Ideal) (iblk m c 2 t) (iblk m c 5 t) = projArr (V m c main_arg2) (V m c main_arg6) (bt t) := by
  funext j
  obtain ⟨k, e, rfl⟩ : ∃ (k : Fin 2048) (e : Fin 64), j = ix2 k e := ⟨j 0, j 1, eq_ix2 j⟩
  refine (Ker.pay2_apply (iblk m c 2 t) (iblk m c 5 t) k e).trans ?_
  rw [projArr_ix2]
  unfold Attn.proj
  refine Finset.sum_congr rfl fun d _ => ?_
  rw [iblk2_apply, iblk5_apply]

/-- After every grid point the two scratch buffers hold the projected keys and values of the point's batch element, and
    the output's staging buffer the attention of the point's query block against them: at a batch element's first tile
    the body has just stored them, at a later tile it left them as the point before had them, which is a tile of the
    same batch element. -/
theorem outsAt_eq (c : Dev nD) (n : ℕ) (hn : n < cfg0.N) :
    outsAt0 m c n hn
      = (k0_pay3 (F := Ideal) (iblk m c 0 (⟨n, hn⟩ : Fin cfg0.N)) (iblk m c 3 (⟨n, hn⟩ : Fin cfg0.N))
            (projArr (V m c main_arg1) (V m c main_arg5) (bt (⟨n, hn⟩ : Fin cfg0.N))) (projArr (V m c main_arg2) (V m c main_arg6) (bt (⟨n, hn⟩ : Fin cfg0.N)))
            (iblk m c 6 (⟨n, hn⟩ : Fin cfg0.N)),
          projArr (V m c main_arg1) (V m c main_arg5) (bt (⟨n, hn⟩ : Fin cfg0.N)), projArr (V m c main_arg2) (V m c main_arg6) (bt (⟨n, hn⟩ : Fin cfg0.N))) := by
  induction n using Nat.strong_induction_on with
  | _ n ih =>
    by_cases h0 : n % 4 = 0
    · rw [outsAt0_A m c (⟨n, hn⟩ : Fin cfg0.N) h0]
      try dsimp only
      rw [Pieces.out_A_7 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) scM0_0 (Memref.isWhole_whole _) scM0_1 (Memref.isWhole_whole _) ((hcond0_0 (⟨n, hn⟩ : Fin cfg0.N)).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)),
        Pieces.sout_A_0 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) scM0_0 (Memref.isWhole_whole _) scM0_1 (Memref.isWhole_whole _) ((hcond0_0 (⟨n, hn⟩ : Fin cfg0.N)).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)),
        Pieces.sout_A_1 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) scM0_0 (Memref.isWhole_whole _) scM0_1 (Memref.isWhole_whole _) ((hcond0_0 (⟨n, hn⟩ : Fin cfg0.N)).mpr h0) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)),
        pay1_eq, pay2_eq]
    · have hpos : n - 1 < n := by omega
      have hb : bt (⟨n - 1, by omega⟩ : Fin cfg0.N) = bt (⟨n, hn⟩ : Fin cfg0.N) := Fin.ext (by show (n - 1) / 4 = n / 4; omega)
      rw [outsAt0_B m c (⟨n, hn⟩ : Fin cfg0.N) h0]
      try dsimp only
      unfold sout0_B_0 sout0_B_1
      rw [Pieces.out_B_7 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) scM0_0 (Memref.isWhole_whole _) scM0_1 (Memref.isWhole_whole _) (fun h => h0 ((hcond0_0 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N))]
      rw [ih (n - 1) hpos (Nat.lt_of_le_of_lt (Nat.sub_le _ _) hn)]
      try dsimp only
      rw [hb]

/-! ## One entry of a point's output block -/

/-- Entry `(q, e)` of the attention of a query block against the projected keys and values of batch element `b`, when
    row `q` of the query block is row `Q` of that batch element, the projection block the whole projection, and row `q`
    of the mask block row `Q` of the mask: it is entry `(b, Q, e)` of the whole result. The block's scores are that row's
    raw scores and its mask row that row of the mask; for real scores and a real mask the weights shifted by the row
    maximum are the weights as they stand. -/
theorem block_val_of (A0 A1 A2 : SX.Idx → EReal) (A3 : SM.Idx → EReal) (A4 A5 A6 : SW.Idx → EReal) (b : Fin 16) (Q : Fin 2048)
    (x0 : Vec Ideal S1x512x64 .f32) (x3 : Vec Ideal S64x64 .f32) (x6 : Vec Ideal S1x512x2048 .f32) (q : Fin 512) (e : Fin 64)
    (h0 : ∀ d : Fin 64, x0 (ix3 (0 : Fin 1) q d) = A0 (ix3 b Q d))
    (h3 : ∀ a a' : Fin 64, x3 (ix2 a a') = A4 (ix2 a a'))
    (h6 : ∀ j : Fin 2048, x6 (ix3 (0 : Fin 1) q j) = A3 (ix3 b Q j))
    (r0 : ∀ i, ∃ r : ℝ, A0 i = (r : EReal)) (r1 : ∀ i, ∃ r : ℝ, A1 i = (r : EReal))
    (r3 : ∀ i, ∃ r : ℝ, A3 i = (r : EReal)) (r4 : ∀ i, ∃ r : ℝ, A4 i = (r : EReal))
    (r5 : ∀ i, ∃ r : ℝ, A5 i = (r : EReal)) :
    k0_pay3 (F := Ideal) x0 x3 (projArr A1 A5 b) (projArr A2 A6 b) x6 (ix3 (0 : Fin 1) q e)
      = Attn.G (Ideal.ofBits .f32 0x41000000#32) (Ideal.ofBits .f32 0x00000000#32) A0 A1 A2 A3 A4 A5 A6 (ix3 b Q e) := by
  refine (Ker.pay3_apply x0 x3 _ _ x6 q e).trans ?_
  rw [Attn.G_ix3]
  unfold Attn.outAt
  refine Finset.sum_congr rfl fun k _ => ?_
  have ha : ∀ j : Fin 2048,
      (∑ d : Fin 64, (∑ d' : Fin 64, x0 (ix3 (0 : Fin 1) q d') * x3 (ix2 d' d)) * projArr A1 A5 b (ix2 j d))
      = Attn.raw A0 A1 A4 A5 b Q j := by
    intro j
    unfold Attn.raw
    refine Finset.sum_congr rfl fun d _ => ?_
    rw [projArr_ix2]
    refine congrArg (· * _) ?_
    unfold Attn.proj
    refine Finset.sum_congr rfl fun d' _ => ?_
    rw [h0, h3]
  simp only [ha, h6]
  rw [projArr_ix2]
  rw [Consts.ofBits_eighth, Consts.ofBits_neg_inf, Consts.ofBits_eight, Consts.ofBits_zero]
  refine congrArg (· * _) ?_
  exact Attn.pKer_eq_pRef _ _ (fun j => Attn.raw_real _ _ _ _ r0 r1 r4 r5 b Q j) (fun j => r3 _) k

/-- The same at a grid point: entry `(q, e)` of point `t`'s output block is entry `(t / 4, 512·(t mod 4) + q, e)` of the
    whole result. -/
theorem block_val (c : Dev nD) (t : Fin cfg0.N)
    (r0 : ∀ i, ∃ r : ℝ, (V m c main_arg0 : SX.Idx → EReal) i = (r : EReal))
    (r1 : ∀ i, ∃ r : ℝ, (V m c main_arg1 : SX.Idx → EReal) i = (r : EReal))
    (r3 : ∀ i, ∃ r : ℝ, (V m c main_arg3 : SM.Idx → EReal) i = (r : EReal))
    (r4 : ∀ i, ∃ r : ℝ, (V m c main_arg4 : SW.Idx → EReal) i = (r : EReal))
    (r5 : ∀ i, ∃ r : ℝ, (V m c main_arg5 : SW.Idx → EReal) i = (r : EReal))
    (q : Fin 512) (e : Fin 64) :
    k0_pay3 (F := Ideal) (iblk m c 0 t) (iblk m c 3 t)
        (projArr (V m c main_arg1) (V m c main_arg5) (bt t)) (projArr (V m c main_arg2) (V m c main_arg6) (bt t))
        (iblk m c 6 t) (ix3 (0 : Fin 1) q e)
      = Attn.G (Ideal.ofBits .f32 0x41000000#32) (Ideal.ofBits .f32 0x00000000#32) (V m c main_arg0) (V m c main_arg1)
          (V m c main_arg2) (V m c main_arg3) (V m c main_arg4) (V m c main_arg5) (V m c main_arg6)
          (ix3 (bt t) (row t q) e) :=
  block_val_of (V m c main_arg0) (V m c main_arg1) (V m c main_arg2) (V m c main_arg3) (V m c main_arg4) (V m c main_arg5)
    (V m c main_arg6) (bt t) (row t q) (iblk m c 0 t) (iblk m c 3 t) (iblk m c 6 t) q e
    (fun d => iblk0_apply m c t q d) (fun a a' => iblk3_apply m c t a a') (fun j => iblk6_apply m c t q j) r0 r1 r3 r4 r5

/-! ## From blocks to the array -/

/-- What point `t` writes back is block `t` of the whole result. -/
theorem flushed_eq (c : Dev nD) (t : Fin cfg0.N)
    (r0 : ∀ i, ∃ r : ℝ, (V m c main_arg0 : SX.Idx → EReal) i = (r : EReal))
    (r1 : ∀ i, ∃ r : ℝ, (V m c main_arg1 : SX.Idx → EReal) i = (r : EReal))
    (r3 : ∀ i, ∃ r : ℝ, (V m c main_arg3 : SM.Idx → EReal) i = (r : EReal))
    (r4 : ∀ i, ∃ r : ℝ, (V m c main_arg4 : SW.Idx → EReal) i = (r : EReal))
    (r5 : ∀ i, ∃ r : ℝ, (V m c main_arg5 : SW.Idx → EReal) i = (r : EReal)) :
    (dats m 0 c).flushed 7 t = ((cfg0.win 7).blk t).view.read (Elt Ideal)
      (Attn.G (Ideal.ofBits .f32 0x41000000#32) (Ideal.ofBits .f32 0x00000000#32) (V m c main_arg0) (V m c main_arg1)
          (V m c main_arg2) (V m c main_arg3) (V m c main_arg4) (V m c main_arg5) (V m c main_arg6)) := by
  rw [Cert.KernelIdeal.Value.flushed7, outsAt_eq]
  funext y
  have y0 : (y 0).val < 1 := (y 0).isLt
  have y1 : (y 1).val < 512 := (y 1).isLt
  have y2 : (y 2).val < 64 := (y 2).isLt
  obtain ⟨e00, e01, e02, e10, e11, e12, e20, e21, e22, e30, e31, e40, e41, e50, e51, e60, e61, e62, e70, e71, e72⟩ := idx_facts t
  have h1 : (cfg0.win 7).xinj (grid0.coords t) y = ix3 (0 : Fin 1) (⟨(y 1).val, y1⟩ : Fin 512) (⟨(y 2).val, y2⟩ : Fin 64) := by
    funext a; apply Fin.ext
    match a with
    | ⟨0, _⟩ => show (y 0).val = 0; omega
    | ⟨1, _⟩ => rfl
    | ⟨2, _⟩ => rfl
  have h2 : ((cfg0.win 7).blk t).view.emb y = ix3 (bt t) (row t (⟨(y 1).val, y1⟩ : Fin 512)) (⟨(y 2).val, y2⟩ : Fin 64) := by
    funext a; apply Fin.ext
    match a with
    | ⟨0, _⟩ => show win0_7.index t (0 : Fin 3) * 1 + 1 * (y 0).val = t.val / 4; omega
    | ⟨1, _⟩ => show win0_7.index t (1 : Fin 3) * 512 + 1 * (y 1).val = 512 * (t.val % 4) + (y 1).val; omega
    | ⟨2, _⟩ => show win0_7.index t (2 : Fin 3) * 64 + 1 * (y 2).val = (y 2).val; omega
  show k0_pay3 (F := Ideal) (iblk m c 0 t) (iblk m c 3 t)
        (projArr (V m c main_arg1) (V m c main_arg5) (bt t)) (projArr (V m c main_arg2) (V m c main_arg6) (bt t))
        (iblk m c 6 t) ((cfg0.win 7).xinj (grid0.coords t) y)
      = Attn.G _ _ (V m c main_arg0) (V m c main_arg1) (V m c main_arg2) (V m c main_arg3) (V m c main_arg4)
          (V m c main_arg5) (V m c main_arg6) (((cfg0.win 7).blk t).view.emb y)
  rw [h1, h2]
  exact block_val m c t r0 r1 r3 r4 r5 _ _

/-- An index of the result array is in point `t`'s block iff each coordinate is in the block's range on its axis. -/
theorem mem_blk (t : Fin cfg0.N) (i : S16x2048x64.Idx) :
    i ∈ ((cfg0.win 7).blk t).view.set ↔ ∀ a : Fin 3, win0_7.index t a * S1x512x64.size a ≤ (i a).val
      ∧ (i a).val < win0_7.index t a * S1x512x64.size a + S1x512x64.size a := by
  show i ∈ ((View.whole main_v0).slice (win0_7.rect t)).set ↔ _
  rw [View.set_slice_whole, Rect.mem_set_unit]
  exact Iff.rfl

/-- Every index of the result array is in some point's block: row `r` of batch element `b` is in tile `r / 512` of `b`. -/
theorem cover (i : S16x2048x64.Idx) :
    ∃ t : Fin cfg0.N, (cfg0.win 7).flush t = true ∧ i ∈ ((cfg0.win 7).blk t).view.set := by
  have i0 : (i 0).val < 16 := (i 0).isLt
  have i1 : (i 1).val < 2048 := (i 1).isLt
  have i2 : (i 2).val < 64 := (i 2).isLt
  have hN : cfg0.N = 64 := N_0
  let t : Fin cfg0.N := ⟨4 * (i 0).val + (i 1).val / 512, by omega⟩
  have tv : t.val = 4 * (i 0).val + (i 1).val / 512 := rfl
  obtain ⟨e00, e01, e02, e10, e11, e12, e20, e21, e22, e30, e31, e40, e41, e50, e51, e60, e61, e62, e70, e71, e72⟩ := idx_facts t
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

/-- The result array after the run is the whole result. -/
theorem final (c : Dev nD)
    (r0 : ∀ i, ∃ r : ℝ, (V m c main_arg0 : SX.Idx → EReal) i = (r : EReal))
    (r1 : ∀ i, ∃ r : ℝ, (V m c main_arg1 : SX.Idx → EReal) i = (r : EReal))
    (r3 : ∀ i, ∃ r : ℝ, (V m c main_arg3 : SM.Idx → EReal) i = (r : EReal))
    (r4 : ∀ i, ∃ r : ℝ, (V m c main_arg4 : SW.Idx → EReal) i = (r : EReal))
    (r5 : ∀ i, ∃ r : ℝ, (V m c main_arg5 : SW.Idx → EReal) i = (r : EReal)) :
    (dats m 0 c).arrAt 7 cfg0.N
      = Attn.G (Ideal.ofBits .f32 0x41000000#32) (Ideal.ofBits .f32 0x00000000#32) (V m c main_arg0) (V m c main_arg1)
          (V m c main_arg2) (V m c main_arg3) (V m c main_arg4) (V m c main_arg5) (V m c main_arg6) :=
  (dats m 0 c).arrAt_eq_of_cover 7 _ (fun t _ => flushed_eq m c t r0 r1 r3 r4 r5) cover

end Cert.Attn.Carried

end
-- ==== Proof.RefSpec.lean ====
/-
  The reference program computes masked attention over projected queries, keys and values. Read one operation at a
  time at an index with literal coordinates, each stage is one of the named quantities of the specification:

  * the three projections are `proj`: row `s` of a batch element times a column of the projection matrix;
  * the batched product of the projected queries with the projected keys over the feature axis is `raw`;
  * dividing by the constant `c`, exponentiating and multiplying by the mask gives the weight `wRef`;
  * the sum of the weights over the key axis, started from `z`, is the row total `z + Σ_j wRef j`, and broadcasting
    it back along the key axis reads it at the row of the index;
  * the weight over that total is `pRef`;
  * the batched product of those with the projected values over the key axis is `outAt`, that is, `G`.

  The two float words `c` and `z` are carried as they stand and are never evaluated.
-/
import proofs.«138952_j47854525612135_2_alg».proof.Proof.Gen.ReferenceIdeal.Read
import proofs.«138952_j47854525612135_2_alg».proof.Proof.Spec

noncomputable section

open scoped BigOperators

namespace Cert.Attn.Ref

open Idealize.ShloMosaic Idealize.ShloMosaic.ValueIdx Cert.ReferenceIdeal Cert.ReferenceIdeal.Read

/-- The argument arrays: sequences, masks, projection matrices, as functions of an index into the extended reals. -/
abbrev AX : Type := (⟨S16x2048x64, .f32⟩ : BufTy).Contents (Elt Ideal)
abbrev AM : Type := (⟨S16x2048x2048, .f32⟩ : BufTy).Contents (Elt Ideal)
abbrev AW : Type := (⟨S64x64, .f32⟩ : BufTy).Contents (Elt Ideal)

/-- The scaling constant and the initial value of the row total, as the float words the program carries. -/
abbrev c8 : EReal := Ideal.ofBits .f32 0x41000000#32
abbrev z0 : EReal := Ideal.ofBits .f32 0x00000000#32

/-! ## The index maps at literal coordinates -/

/-- A projection reads its left operand along the feature axis of the same row. -/
theorem lidx0 (b : Fin 16) (s : Fin 2048) (e d : Fin 64) : lidx_main_v0 (ix3 b s e) d = ix3 b s d :=
  funext fun a => Fin.ext (by match a with | ⟨0, _⟩ => rfl | ⟨1, _⟩ => rfl | ⟨2, _⟩ => rfl)
/-- A projection reads the matrix down the column of the result's feature. -/
theorem ridx0 (b : Fin 16) (s : Fin 2048) (e d : Fin 64) : ridx_main_v0 (ix3 b s e) d = ix2 d e :=
  funext fun a => Fin.ext (by match a with | ⟨0, _⟩ => rfl | ⟨1, _⟩ => rfl)
theorem lidx1 (b : Fin 16) (s : Fin 2048) (e d : Fin 64) : lidx_main_v1 (ix3 b s e) d = ix3 b s d :=
  funext fun a => Fin.ext (by match a with | ⟨0, _⟩ => rfl | ⟨1, _⟩ => rfl | ⟨2, _⟩ => rfl)
theorem ridx1 (b : Fin 16) (s : Fin 2048) (e d : Fin 64) : ridx_main_v1 (ix3 b s e) d = ix2 d e :=
  funext fun a => Fin.ext (by match a with | ⟨0, _⟩ => rfl | ⟨1, _⟩ => rfl)
theorem lidx2 (b : Fin 16) (s : Fin 2048) (e d : Fin 64) : lidx_main_v2 (ix3 b s e) d = ix3 b s d :=
  funext fun a => Fin.ext (by match a with | ⟨0, _⟩ => rfl | ⟨1, _⟩ => rfl | ⟨2, _⟩ => rfl)
theorem ridx2 (b : Fin 16) (s : Fin 2048) (e d : Fin 64) : ridx_main_v2 (ix3 b s e) d = ix2 d e :=
  funext fun a => Fin.ext (by match a with | ⟨0, _⟩ => rfl | ⟨1, _⟩ => rfl)

/-- The score of query `q` against key `k` reads the projected query's row `q` … -/
theorem lidx3 (b : Fin 16) (q k : Fin 2048) (d : Fin 64) : lidx_main_v3 (ix3 b q k) d = ix3 b q d :=
  funext fun a => Fin.ext (by match a with | ⟨0, _⟩ => rfl | ⟨1, _⟩ => rfl | ⟨2, _⟩ => rfl)
/-- … and the projected key's row `k`, both along the feature axis. -/
theorem ridx3 (b : Fin 16) (q k : Fin 2048) (d : Fin 64) : ridx_main_v3 (ix3 b q k) d = ix3 b k d :=
  funext fun a => Fin.ext (by match a with | ⟨0, _⟩ => rfl | ⟨1, _⟩ => rfl | ⟨2, _⟩ => rfl)

/-- The row total of `(b, q)` sums the weights of that row along the key axis. -/
theorem idx8 (b : Fin 16) (q k : Fin 2048) : idx_main_v8 (ix2 b q) k = ix3 b q k :=
  funext fun a => Fin.ext (by match a with | ⟨0, _⟩ => rfl | ⟨1, _⟩ => rfl | ⟨2, _⟩ => rfl)
/-- Broadcast back along the key axis, the total is read at the row of the index. -/
theorem idx9_10 (b : Fin 16) (q k : Fin 2048) : idx_main_v9 (idx_main_v10 (ix3 b q k)) = ix2 b q :=
  funext fun a => Fin.ext (by match a with | ⟨0, _⟩ => rfl | ⟨1, _⟩ => rfl)

/-- The result's entry `(b, q, e)` reads the normalised weights of row `q` along the key axis … -/
theorem lidx12 (b : Fin 16) (q : Fin 2048) (e : Fin 64) (k : Fin 2048) : lidx_main_v12 (ix3 b q e) k = ix3 b q k :=
  funext fun a => Fin.ext (by match a with | ⟨0, _⟩ => rfl | ⟨1, _⟩ => rfl | ⟨2, _⟩ => rfl)
/-- … and the projected values down the key axis at feature `e`. -/
theorem ridx12 (b : Fin 16) (q : Fin 2048) (e : Fin 64) (k : Fin 2048) : ridx_main_v12 (ix3 b q e) k = ix3 b k e :=
  funext fun a => Fin.ext (by match a with | ⟨0, _⟩ => rfl | ⟨1, _⟩ => rfl | ⟨2, _⟩ => rfl)

/-! ## The stages at literal coordinates -/

/-- The projected queries. -/
theorem v0_at (x0 : AX) (x4 : AW) (b : Fin 16) (s : Fin 2048) (e : Fin 64) :
    val_main_v0 (F := Ideal) x0 x4 (ix3 b s e) = proj x0 x4 b s e := by
  rw [val_main_v0_apply]
  unfold proj
  exact Finset.sum_congr rfl fun d _ => by rw [lidx0, ridx0]

/-- The projected keys. -/
theorem v1_at (x1 : AX) (x5 : AW) (b : Fin 16) (s : Fin 2048) (e : Fin 64) :
    val_main_v1 (F := Ideal) x1 x5 (ix3 b s e) = proj x1 x5 b s e := by
  rw [val_main_v1_apply]
  unfold proj
  exact Finset.sum_congr rfl fun d _ => by rw [lidx1, ridx1]

/-- The projected values. -/
theorem v2_at (x2 : AX) (x6 : AW) (b : Fin 16) (s : Fin 2048) (e : Fin 64) :
    val_main_v2 (F := Ideal) x2 x6 (ix3 b s e) = proj x2 x6 b s e := by
  rw [val_main_v2_apply]
  unfold proj
  exact Finset.sum_congr rfl fun d _ => by rw [lidx2, ridx2]

/-- The raw scores. -/
theorem v3_at (x0 x1 : AX) (x4 x5 : AW) (b : Fin 16) (q k : Fin 2048) :
    val_main_v3 (F := Ideal) x0 x1 x4 x5 (ix3 b q k) = raw x0 x1 x4 x5 b q k := by
  rw [val_main_v3_apply]
  unfold raw
  exact Finset.sum_congr rfl fun d _ => by rw [lidx3, ridx3, v0_at, v1_at]

/-- The scores divided by the constant. -/
theorem v5_at (x0 x1 : AX) (x4 x5 : AW) (b : Fin 16) (q k : Fin 2048) :
    val_main_v5 (F := Ideal) x0 x1 x4 x5 (ix3 b q k) = Ideal.div (raw x0 x1 x4 x5 b q k) c8 := by
  rw [val_main_v5_apply, val_main_v4_apply, val_main_cst_apply, v3_at]
  rfl

/-- The masked exponentials are the weights of the row. -/
theorem v7_at (x0 x1 : AX) (x3 : AM) (x4 x5 : AW) (b : Fin 16) (q k : Fin 2048) :
    val_main_v7 (F := Ideal) x0 x1 x3 x4 x5 (ix3 b q k)
      = wRef c8 (raw x0 x1 x4 x5 b q) (fun j => x3 (ix3 b q j)) k := by
  rw [val_main_v7_apply, val_main_v6_apply, v5_at]
  rfl

/-- The row totals. -/
theorem v8_at (x0 x1 : AX) (x3 : AM) (x4 x5 : AW) (b : Fin 16) (q : Fin 2048) :
    val_main_v8 (F := Ideal) x0 x1 x3 x4 x5 (ix2 b q)
      = z0 + ∑ k : Fin 2048, wRef c8 (raw x0 x1 x4 x5 b q) (fun j => x3 (ix3 b q j)) k := by
  rw [val_main_v8_apply, val_main_cst_0_apply]
  refine congrArg (_ + ·) (Finset.sum_congr rfl fun k _ => ?_)
  rw [idx8, v7_at]

/-- The row total, broadcast back along the key axis. -/
theorem v10_at (x0 x1 : AX) (x3 : AM) (x4 x5 : AW) (b : Fin 16) (q k : Fin 2048) :
    val_main_v10 (F := Ideal) x0 x1 x3 x4 x5 (ix3 b q k)
      = z0 + ∑ j : Fin 2048, wRef c8 (raw x0 x1 x4 x5 b q) (fun j => x3 (ix3 b q j)) j := by
  rw [val_main_v10_apply, val_main_v9_apply, idx9_10, v8_at]

/-- The normalised weights. -/
theorem v11_at (x0 x1 : AX) (x3 : AM) (x4 x5 : AW) (b : Fin 16) (q k : Fin 2048) :
    val_main_v11 (F := Ideal) x0 x1 x3 x4 x5 (ix3 b q k)
      = pRef c8 z0 (raw x0 x1 x4 x5 b q) (fun j => x3 (ix3 b q j)) k := by
  rw [val_main_v11_apply, v7_at, v10_at]
  rfl

/-- The result at literal coordinates. -/
theorem v12_at (x0 x1 x2 : AX) (x3 : AM) (x4 x5 x6 : AW) (b : Fin 16) (q : Fin 2048) (e : Fin 64) :
    val_main_v12 (F := Ideal) x0 x1 x2 x3 x4 x5 x6 (ix3 b q e) = outAt c8 z0 x0 x1 x2 x3 x4 x5 x6 b q e := by
  rw [val_main_v12_apply]
  unfold outAt
  exact Finset.sum_congr rfl fun k _ => by rw [lidx12, ridx12, v11_at, v2_at]

/-! ## The whole result -/

/-- The reference program's result is the specification. -/
theorem ref_eq (x0 x1 x2 : (⟨Cert.ReferenceIdeal.S16x2048x64, .f32⟩ : BufTy).Contents (Elt Ideal))
    (x3 : (⟨Cert.ReferenceIdeal.S16x2048x2048, .f32⟩ : BufTy).Contents (Elt Ideal))
    (x4 x5 x6 : (⟨Cert.ReferenceIdeal.S64x64, .f32⟩ : BufTy).Contents (Elt Ideal)) :
    Cert.ReferenceIdeal.Read.val_main_v12 (F := Ideal) x0 x1 x2 x3 x4 x5 x6
      = Cert.Attn.G (Ideal.ofBits .f32 0x41000000#32) (Ideal.ofBits .f32 0x00000000#32) x0 x1 x2 x3 x4 x5 x6 := by
  funext i
  obtain ⟨b, q, e, rfl⟩ : ∃ (b : Fin 16) (q : Fin 2048) (e : Fin 64), i = ix3 b q e := ⟨i 0, i 1, i 2, eq_ix3 i⟩
  exact (v12_at x0 x1 x2 x3 x4 x5 x6 b q e).trans (G_ix3 c8 z0 x0 x1 x2 x3 x4 x5 x6 b q e).symm

end Cert.Attn.Ref

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.Finite.lean ====
/-
  The precondition read back: when the printed test "every entry of every argument has absolute value below +∞" comes
  out true, every entry of each of the seven argument arrays is a real number.
-/
import proofs.«138952_j47854525612135_2_alg».proof.Pre_finite_inputs
import proofs.«138952_j47854525612135_2_alg».proof.Proof.LibFiniteEntry
import Idealize.ShloMosaic.Lib.ReduceAll
import Idealize.ShloMosaic.Lib.ValueIdx

noncomputable section

namespace Cert.Attn.Finite

open Idealize.ShloMosaic Cert.Pre_finite_inputs Cert.Pre_finite_inputs.Facts

/-- The scalar shape has one index. -/
instance : Subsingleton S_.Idx := ⟨fun a b => funext fun d => d.elim0⟩

/-- An array is real-valued: each entry is a real number. -/
def RealValued {s : Shape} (a : s.Idx → EReal) : Prop := ∀ i, ∃ r : ℝ, a i = (r : EReal)

/-- The test is a conjunction of seven "all entries finite" tests, one per argument; each, being true, makes its
    argument real-valued. -/
theorem reals_of_fn [Facts] (a0 a1 a2 : FVec Ideal S16x2048x64 .f32) (a3 : FVec Ideal S16x2048x2048 .f32)
    (a4 a5 a6 : FVec Ideal S64x64 .f32) (h : fn (F := Ideal) a0 a1 a2 a3 a4 a5 a6 = fun _ => 1#1) :
    RealValued a0 ∧ RealValued a1 ∧ RealValued a2 ∧ RealValued a3 ∧ RealValued a4 ∧ RealValued a5 ∧ RealValued a6 := by
  have h0 := congrFun h ValueIdx.ix0
  dsimp only [fn, fn_part1, andi] at h0
  simp only [IntOp.andi_eq_one] at h0
  obtain ⟨⟨⟨⟨⟨⟨e0, e1⟩, e2⟩, e3⟩, e4⟩, e5⟩, e6⟩ := h0
  exact ⟨fun i => LibFiniteEntry.real_of_finite_test a0 _ i (Host.reduce_andi_all _ _ _ _ _ e0 i),
    fun i => LibFiniteEntry.real_of_finite_test a1 _ i (Host.reduce_andi_all _ _ _ _ _ e1 i),
    fun i => LibFiniteEntry.real_of_finite_test a2 _ i (Host.reduce_andi_all _ _ _ _ _ e2 i),
    fun i => LibFiniteEntry.real_of_finite_test a3 _ i (Host.reduce_andi_all _ _ _ _ _ e3 i),
    fun i => LibFiniteEntry.real_of_finite_test a4 _ i (Host.reduce_andi_all _ _ _ _ _ e4 i),
    fun i => LibFiniteEntry.real_of_finite_test a5 _ i (Host.reduce_andi_all _ _ _ _ _ e5 i),
    fun i => LibFiniteEntry.real_of_finite_test a6 _ i (Host.reduce_andi_all _ _ _ _ _ e6 i)⟩

end Cert.Attn.Finite

end
-- ==== Proof.Claims.lean ====
/-
  The five claims.

  The three frames are the generated frame runs (the reference's is its run with the result dropped). The kernel's
  idealization rewrote no operation, so there is nothing to preserve. For the value claim both programs end, from
  memories that agree on the seven arguments, with one and the same function of those arguments in their result arrays:
  masked attention over the projected queries, keys and values. The kernel's array is that function by its run read
  block by block, under the precondition that the arguments are finite; the reference's by its run read one operation at
  a time.
-/
import proofs.«138952_j47854525612135_2_alg».proof.Defs
import proofs.«138952_j47854525612135_2_alg».proof.Proof.Gen.Kernel
import proofs.«138952_j47854525612135_2_alg».proof.Proof.Gen.Kernel.Frame
import proofs.«138952_j47854525612135_2_alg».proof.Proof.Gen.KernelIdeal
import proofs.«138952_j47854525612135_2_alg».proof.Proof.Gen.KernelIdeal.Frame
import proofs.«138952_j47854525612135_2_alg».proof.Proof.Gen.KernelIdeal.Value
import proofs.«138952_j47854525612135_2_alg».proof.Proof.Gen.ReferenceIdeal
import proofs.«138952_j47854525612135_2_alg».proof.Proof.Gen.ReferenceIdeal.Run
import proofs.«138952_j47854525612135_2_alg».proof.Proof.Gen.ReferenceIdeal.Read
import proofs.«138952_j47854525612135_2_alg».proof.Proof.Gen.Pre_finite_inputs
import proofs.«138952_j47854525612135_2_alg».proof.Proof.KernelValue
import proofs.«138952_j47854525612135_2_alg».proof.Proof.RefSpec
import proofs.«138952_j47854525612135_2_alg».proof.Proof.Finite

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays end as masked attention of the arguments. -/
theorem algebraic : Cert.algebraic_KernelIdeal_ReferenceIdeal := by
  intro m ρ m' ρ' hpre hagree
  refine ⟨fun c => Cert.Attn.G (Ideal.ofBits .f32 0x41000000#32) (Ideal.ofBits .f32 0x00000000#32)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Value.run_blocks m ρ)
    obtain ⟨r0, r1, -, r3, r4, r5, -⟩ := Cert.Attn.Finite.reals_of_fn _ _ _ _ _ _ _ (hpre c)
    exact Cert.Attn.Carried.final m c r0 r1 r3 r4 r5
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v12_eq, Cert.Attn.Ref.ref_eq, a0, a1, a2, a3, a4, a5, a6]

end Cert.Proof.Claims

end
-- ==== Proof.lean ====
/-
  Masked attention with fused projections, a Pallas kernel against its jnp reference, on the extended reals.

  Both programs project queries, keys and values through 64 × 64 matrices, score every query row against every key row
  of its batch element, exponentiate, multiply by a mask, normalise each row by its sum and multiply into the projected
  values. The reference divides the scores by 8 and exponentiates them as they stand; the kernel multiplies by 1/8 and
  subtracts each row's maximum before the exponential, which scales a row's weights and their sum by the same positive
  factor and so leaves the normalised weights unchanged — for real scores, which finite arguments give. The kernel also
  works tile by tile over a 16 × 4 grid, keeping the projected keys and values of a batch element in scratch buffers
  across that element's four query tiles. Proof/Spec.lean states the result as one function of the arguments,
  Proof/Law.lean the law between the two arrangements, Proof/RefSpec.lean and Proof/KernelValue.lean that each program
  ends with that function in its result array, and Proof/Claims.lean the five claims.
-/
import proofs.«138952_j47854525612135_2_alg».proof.Defs
import proofs.«138952_j47854525612135_2_alg».proof.Proof.Gen.Kernel
import proofs.«138952_j47854525612135_2_alg».proof.Proof.Gen.KernelIdeal
import proofs.«138952_j47854525612135_2_alg».proof.Proof.Gen.ReferenceIdeal
import proofs.«138952_j47854525612135_2_alg».proof.Proof.Gen.Pre_finite_inputs
import proofs.«138952_j47854525612135_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
